-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x16 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩
abbrev S1x64 : Shape := ⟨2, ![1, 64]⟩
abbrev S100000x16 : Shape := ⟨2, ![100000, 16]⟩
abbrev S5000x16 : Shape := ⟨2, ![5000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 62
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x16, .f32⟩
  | .local _ .vmem, ⟨9, _⟩ => ⟨S16, .f32⟩
  | .local _ .vmem, ⟨10, _⟩ => ⟨S5000x16, .f32⟩
  | .local _ .vmem, ⟨11, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S100000x16, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x16, .f32⟩
  | .hbm, ⟨78, _⟩ => ⟨S100000x16, .f32⟩
  | .hbm, ⟨79, _⟩ => ⟨S100000x16, .f32⟩
  | .hbm, ⟨80, _⟩ => ⟨S_, .f32⟩
  | .hbm, ⟨81, _⟩ => ⟨S100000, .f32⟩
  | .hbm, ⟨82, _⟩ => ⟨S100000x1, .f32⟩
  | .hbm, ⟨83, _⟩ => ⟨S100000x1, .f32⟩
  | .hbm, ⟨84, _⟩ => ⟨S100000x16, .f32⟩
  | .hbm, ⟨85, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_1 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_v51 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibDenseLayers.lean ====
/-
  The two dense layers of the network, index by index, on the extended reals.

  A dense layer takes a matrix `a` of R rows and K columns, a weight matrix `w` (K by P) and a bias `b` (P entries):
  entry (r, c) of `a · w + b` is the sum over k of a(r, k) · w(k, c), plus b(c). The first layer follows it by a
  rectifier (the maximum with zero); the second by a logarithmic softmax along each row: with m the row's maximum
  (a fold of `max` from −∞) and z = y − m, the result is z − log (Σ exp z) over the row.

  Every entry of either result depends on ONE row of `a` only. So a block of consecutive rows of the result is the
  same function of the matching block of rows of `a` (`denseRelu_rows`, `denseLogSoftmax_rows`): this is what lets a
  kernel compute the layer tile by tile.
-/
import Idealize.ShloMosaic.Lib.ValueIdx
import Idealize.ShloMosaic.PureOps.Ideal

noncomputable section

namespace SageSpec

open Idealize.ShloMosaic Idealize.ShloMosaic.ValueIdx

variable {R K P : Nat}

/-- Entry (r, c) of `a · w + b`. -/
def dense (a : (⟨2, ![R, K]⟩ : Shape).Idx → EReal) (w : (⟨2, ![K, P]⟩ : Shape).Idx → EReal)
    (b : (⟨1, ![P]⟩ : Shape).Idx → EReal) (r : Fin R) (c : Fin P) : EReal :=
  (∑ k : Fin K, a (ix2 r k) * w (ix2 k c)) + b (ix1 c)

/-- Entry (r, c) of `max (a · w + b) 0`; the zero is the f32 zero word's value. -/
def denseRelu (a : (⟨2, ![R, K]⟩ : Shape).Idx → EReal) (w : (⟨2, ![K, P]⟩ : Shape).Idx → EReal)
    (b : (⟨1, ![P]⟩ : Shape).Idx → EReal) (r : Fin R) (c : Fin P) : EReal :=
  max (dense a w b r c) (Ideal.ofBits .f32 0x00000000#32)

/-- A row's maximum: the fold of `max` over the row from the value of the f32 word of −∞. -/
def rowMax (y : Fin P → EReal) : EReal :=
  (Finset.univ : Finset (Fin P)).fold max (Ideal.ofBits .f32 0xFF800000#32) y

/-- The logarithmic softmax of one row `y`, at column `c`. -/
def logSoftmaxRow (y : Fin P → EReal) (c : Fin P) : EReal :=
  (y c - rowMax y) - Ideal.log (∑ c' : Fin P, Ideal.exp (y c' - rowMax y))

/-- Entry (r, c) of the logarithmic softmax, along each row, of `a · w + b`. -/
def denseLogSoftmax (a : (⟨2, ![R, K]⟩ : Shape).Idx → EReal) (w : (⟨2, ![K, P]⟩ : Shape).Idx → EReal)
    (b : (⟨1, ![P]⟩ : Shape).Idx → EReal) (r : Fin R) (c : Fin P) : EReal :=
  logSoftmaxRow (fun c' => dense a w b r c') c

variable {R' : Nat}

/-- A row of `a · w + b` is a function of the same row of `a`. -/
theorem dense_rows (a : (⟨2, ![R, K]⟩ : Shape).Idx → EReal) (a' : (⟨2, ![R', K]⟩ : Shape).Idx → EReal)
    (w : (⟨2, ![K, P]⟩ : Shape).Idx → EReal) (b : (⟨1, ![P]⟩ : Shape).Idx → EReal) (r : Fin R) (r' : Fin R')
    (h : ∀ k : Fin K, a (ix2 r k) = a' (ix2 r' k)) (c : Fin P) : dense a w b r c = dense a' w b r' c := by
  unfold dense
  exact congrArg (· + b (ix1 c)) (Finset.sum_congr rfl fun k _ => by rw [h k])

theorem denseRelu_rows (a : (⟨2, ![R, K]⟩ : Shape).Idx → EReal) (a' : (⟨2, ![R', K]⟩ : Shape).Idx → EReal)
    (w : (⟨2, ![K, P]⟩ : Shape).Idx → EReal) (b : (⟨1, ![P]⟩ : Shape).Idx → EReal) (r : Fin R) (r' : Fin R')
    (h : ∀ k : Fin K, a (ix2 r k) = a' (ix2 r' k)) (c : Fin P) : denseRelu a w b r c = denseRelu a' w b r' c := by
  unfold denseRelu
  rw [dense_rows a a' w b r r' h c]

theorem denseLogSoftmax_rows (a : (⟨2, ![R, K]⟩ : Shape).Idx → EReal) (a' : (⟨2, ![R', K]⟩ : Shape).Idx → EReal)
    (w : (⟨2, ![K, P]⟩ : Shape).Idx → EReal) (b : (⟨1, ![P]⟩ : Shape).Idx → EReal) (r : Fin R) (r' : Fin R')
    (h : ∀ k : Fin K, a (ix2 r k) = a' (ix2 r' k)) (c : Fin P) :
    denseLogSoftmax a w b r c = denseLogSoftmax a' w b r' c := by
  unfold denseLogSoftmax
  rw [show (fun c' => dense a w b r c') = fun c' => dense a' w b r' c' from funext fun c' => dense_rows a a' w b r r' h c']

/-- The same, with the weights and the bias also read through copies that agree where the entry looks. -/
theorem denseRelu_tile (a : (⟨2, ![R, K]⟩ : Shape).Idx → EReal) (a' : (⟨2, ![R', K]⟩ : Shape).Idx → EReal)
    (w w' : (⟨2, ![K, P]⟩ : Shape).Idx → EReal) (b b' : (⟨1, ![P]⟩ : Shape).Idx → EReal) (r : Fin R) (r' : Fin R') (c : Fin P)
    (h : ∀ k : Fin K, a' (ix2 r' k) = a (ix2 r k)) (hw : ∀ k : Fin K, w' (ix2 k c) = w (ix2 k c)) (hb : b' (ix1 c) = b (ix1 c)) :
    denseRelu a' w' b' r' c = denseRelu a w b r c := by
  unfold denseRelu dense
  rw [hb]
  exact congrArg (fun s => max (s + b (ix1 c)) (Ideal.ofBits .f32 0x00000000#32))
    (Finset.sum_congr rfl fun k _ => by rw [h k, hw k])

theorem denseLogSoftmax_tile (a : (⟨2, ![R, K]⟩ : Shape).Idx → EReal) (a' : (⟨2, ![R', K]⟩ : Shape).Idx → EReal)
    (w w' : (⟨2, ![K, P]⟩ : Shape).Idx → EReal) (b b' : (⟨1, ![P]⟩ : Shape).Idx → EReal) (r : Fin R) (r' : Fin R') (c : Fin P)
    (h : ∀ k : Fin K, a' (ix2 r' k) = a (ix2 r k)) (hw : ∀ (k : Fin K) (c' : Fin P), w' (ix2 k c') = w (ix2 k c'))
    (hb : ∀ c' : Fin P, b' (ix1 c') = b (ix1 c')) :
    denseLogSoftmax a' w' b' r' c = denseLogSoftmax a w b r c := by
  unfold denseLogSoftmax
  refine congrArg (fun y => logSoftmaxRow y c) (funext fun c' => ?_)
  unfold dense
  rw [hb c']
  exact congrArg (· + b (ix1 c')) (Finset.sum_congr rfl fun k _ => by rw [h k, hw k c'])

end SageSpec

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.Pay0.lean ====
/-
  The first kernel's tile, index by index.

  On a tile of 5000 rows the first kernel multiplies the tile by the 64 × 64 weight matrix on the matrix unit (into a
  splat of zeros; the two roundings to bf16 on the way in are the identity on the extended reals), adds the bias row to
  every row and takes the maximum with zero. Read at row p and column q that is the dense layer with a rectifier,
  `SageSpec.denseRelu`, of the tile, the weights and the bias.
-/
import proofs.«103384_j35150012351301_1_alg».proof.Proof.Gen.KernelIdeal.Skeleton
import proofs.«103384_j35150012351301_1_alg».proof.Proof.LibDenseLayers
import proofs.«103384_j35150012351301_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- The product of a tile by the weights, accumulated into zeros, at (p, q): the plain sum over the 64 columns. -/
theorem tile_product0 (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) :=
  PlainProduct.matmul_zero_apply (M := 5000) (K := 64) (P := 64) dot_S5000x64_S64x64_S5000x64_1_0_0_1_n_n.wf none a w p q

/-- The bias, cast to one row and spread over the tile's rows, at (p, q) is the bias at q. -/
theorem bias_rows0 (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply (shapeCast S1x64 b shapeCasts_S64_S1x64) broadcasts_S1x64_S5000x64 p q).trans
    (shapeCast_a_1a_apply b shapeCasts_S64_S1x64 (0 : Fin 1) q)

/-- THE FIRST KERNEL'S TILE at (p, q) is the rectified dense layer of the tile's row p. -/
theorem pay0_apply (x0 : Vec Ideal S5000x64 .f32) (x1 : Vec Ideal S64x64 .f32) (x2 : Vec Ideal S64 .f32) (p : Fin 5000) (q : Fin 64) :
    k0_pay1 (F := Ideal) x0 x1 x2 (ix2 p q) = SageSpec.denseRelu x0 x1 x2 p q := by
  unfold k0_pay1 SageSpec.denseRelu SageSpec.dense
  rw [shapeCast_self]
  refine congrArg₂ max (congrArg₂ (· + ·) ?_ ?_) rfl
  · exact tile_product0 _ _ p q
  · exact bias_rows0 x2 p q

end Cert.KernelIdeal.KValue

end
-- ==== Proof.Blocks0.lean ====
/-
  From tiles to the array: the first kernel.

  The first kernel's grid has 20 points; point t reads rows 5000·t … 5000·t + 4999 of its input array (all 64 columns),
  the whole weight matrix and the whole bias, and writes back rows 5000·t … 5000·t + 4999 of its output. Since an entry
  of the rectified dense layer depends on one row of the input only, what point t writes back is block t of the
  rectified dense layer of the WHOLE input array; the 20 blocks tile the 100000 rows, so after the last point the output
  array is that layer, entry by entry. All of this for ANY contents `V` the region is entered with.
-/
import proofs.«103384_j35150012351301_1_alg».proof.Proof.Gen.KernelIdeal.Frame
import proofs.«103384_j35150012351301_1_alg».proof.Proof.Pay0
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The rectified dense layer of a whole 100000 × 64 array. -/
def layer0 (a : S100000x64.Idx → EReal) (w : S64x64.Idx → EReal) (b : S64.Idx → EReal) : S100000x64.Idx → EReal :=
  fun i => SageSpec.denseRelu a w b (i 0) (i 1)

/-- The printed index maps over the grid: the input and the output move one block of rows per point; the weights and
    the bias stay. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is block t of the layer of the arrays as the region finds them. -/
theorem flushed0_eq (c : Dev nD) (t : Fin cfg0.N) :
    (dat0 V c).flushed 3 t = ((cfg0.win 3).blk t).view.read (Elt Ideal) (layer0 (V c main_v22) (V c main_arg2) (V c main_arg3)) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S64x64) zeros2, View.ld_unit_zero (S := S64) zeros1]
  obtain ⟨e00, e01, e10, e11, e20, e30, e31⟩ := index_facts0 t
  have ht : t.val < 20 := lt_of_lt_of_eq t.isLt N_0
  funext j
  obtain ⟨p, q, rfl⟩ : ∃ (p : Fin 5000) (q : Fin 64), j = ix2 p q := ⟨j 0, j 1, eq_ix2 j⟩
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show k0_pay1 (F := Ideal) (iblk0 V c 0 t) (iblk0 V c 1 t) (iblk0 V c 2 t) (ix2 p q)
    = layer0 (V c main_v22) (V c main_arg2) (V c main_arg3) (((cfg0.win 3).blk t).view.emb (ix2 p q))
  rw [hemb]
  refine (pay0_apply _ _ _ p q).trans ?_
  show _ = SageSpec.denseRelu (V c main_v22) (V c main_arg2) (V c main_arg3) (⟨t.val * 5000 + p.val, by omega⟩ : Fin 100000) q
  refine SageSpec.denseRelu_tile _ _ _ _ _ _ _ p q (fun k => ?_) (fun k => ?_) ?_
  · show V c main_v22 (((cfg0.win 0).blk t).view.emb (ix2 p k)) = V c main_v22 (ix2 (⟨t.val * 5000 + p.val, by omega⟩ : Fin 100000) k)
    refine congrArg (V c main_v22) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · show V c main_arg3 (((cfg0.win 2).blk t).view.emb (ix1 q)) = V c main_arg3 (ix1 q)
    refine congrArg (V c main_arg3) (funext fun a => Fin.ext ?_)
    match a with
    | ⟨0, _⟩ => show win0_2.index t (0 : Fin 1) * 64 + 1 * q.val = q.val; omega

/-- An index of the output array is in point t's block iff each coordinate is in the block's range. -/
theorem mem_block0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v23).slice (win0_3.rect t)).set ↔ _
  rw [View.set_slice_whole, Rect.mem_set_unit]
  exact Iff.rfl

/-- Every row lies in the block of the point numbered by the row's quotient by 5000. -/
theorem cover0 (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  let t : Fin cfg0.N := ⟨(i 0).val / 5000, by show _ < grid0.N; rw [N_0]; omega⟩
  obtain ⟨-, -, -, -, -, e30, e31⟩ := index_facts0 t
  have e30' : win0_3.index t (0 : Fin 2) = (i 0).val / 5000 := e30
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the first kernel's last point: the rectified dense layer of the arrays the region found. -/
theorem final0 (c : Dev nD) :
    (dat0 V c).arrAt 3 cfg0.N = layer0 (V c main_v22) (V c main_arg2) (V c main_arg3) :=
  (dat0 V c).arrAt_eq_of_cover 3 (layer0 (V c main_v22) (V c main_arg2) (V c main_arg3)) (fun t _ => flushed0_eq V c t) cover0

end Cert.KernelIdeal.KValue

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.Pay1.lean ====
/-
  The second kernel's tile, index by index.

  On a tile of 5000 rows the second kernel forms y = tile · W + b (16 columns; the product on the matrix unit into a
  splat of zeros), takes each row's maximum m (a reduction along the 16 lanes from −∞), subtracts it, and subtracts
  the logarithm of the row's sum of exponentials: z − log Σ exp z with z = y − m. The row reductions are kept as
  columns and spread back over the lanes. Read at row p and column q this is the logarithmic softmax of row p of the
  dense layer, `SageSpec.denseLogSoftmax`.
-/
import proofs.«103384_j35150012351301_1_alg».proof.Proof.Gen.KernelIdeal.Skeleton
import proofs.«103384_j35150012351301_1_alg».proof.Proof.LibDenseLayers
import proofs.«103384_j35150012351301_1_alg».proof.Proof.LibPlainProduct
import proofs.«103384_j35150012351301_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- The product of a tile by the 64 × 16 weights, accumulated into zeros, at (p, q): the plain sum over 64 columns. -/
theorem tile_product1 (a : FVec Ideal S5000x64 .bf16) (w : FVec Ideal S64x16 .bf16) (p : Fin 5000) (q : Fin 16) :
    matmul dot_S5000x64_S64x16_S5000x16_1_0_0_1_n_n none a w (constant S5000x16 .f32 0x00000000#32) (ix2 p q)
      = ∑ k : Fin 64, a (ix2 p k) * w (ix2 k q) :=
  PlainProduct.matmul_zero_apply (M := 5000) (K := 64) (P := 16) dot_S5000x64_S64x16_S5000x16_1_0_0_1_n_n.wf none a w p q

/-- The bias, cast to one row and spread over the tile's rows, at (p, q) is the bias at q. -/
theorem bias_rows1 (b : FVec Ideal S16 .f32) (p : Fin 5000) (q : Fin 16) :
    broadcastTo S5000x16 (shapeCast S1x16 b shapeCasts_S16_S1x16) broadcasts_S1x16_S5000x16 (ix2 p q) = b (ix1 q) :=
  (broadcastTo_1b_ab_apply (shapeCast S1x16 b shapeCasts_S16_S1x16) broadcasts_S1x16_S5000x16 p q).trans
    (shapeCast_a_1a_apply b shapeCasts_S16_S1x16 (0 : Fin 1) q)

/-- The reduced index p with lane k put back is (p, k). -/
theorem lift_row (h : S5000x16.Reduces [1] S5000) (p : Fin 5000) (k : Fin (S5000x16.size 1)) :
    h.lift (ix1 p) k = ix2 p (⟨k.val, k.isLt⟩ : Fin 16) := by
  funext c; apply Fin.ext
  fin_cases c <;> rfl

/-- A per-row value kept as a column and spread over the 16 lanes, at (p, q), is the value of row p. -/
theorem col_spread (v : FVec Ideal S5000 .f32) (p : Fin 5000) (q : Fin 16) :
    broadcastTo S5000x16 (shapeCast S5000x1 v shapeCasts_S5000_S5000x1) broadcasts_S5000x1_S5000x16 (ix2 p q) = v (ix1 p) :=
  (LibColumns.broadcastTo_a1_ab_apply (shapeCast S5000x1 v shapeCasts_S5000_S5000x1) broadcasts_S5000x1_S5000x16 p q).trans
    (LibColumns.shapeCast_a_a1_apply v shapeCasts_S5000_S5000x1 p (0 : Fin 1))

/-- The lane maximum of row p, from −∞, is the row's maximum. -/
theorem tile_rowMax (y : FVec Ideal S5000x16 .f32) (p : Fin 5000) :
    multiReduction .maximumf [1] S5000 y 0xFF800000#32 reduces_S5000x16_S5000 (.inl rfl) rfl (ix1 p)
      = SageSpec.rowMax (fun c : Fin 16 => y (ix2 p c)) := by
  refine (Ideal.multiReduction_maximumf_single y _ reduces_S5000x16_S5000 (.inl rfl) rfl (ix1 p)).trans ?_
  unfold SageSpec.rowMax
  have hf : (y ∘ reduces_S5000x16_S5000.lift (ix1 p)) = fun c : Fin 16 => y (ix2 p c) :=
    funext fun k => congrArg y (lift_row _ p k)
  exact congrArg (fun f => Finset.fold max (Ideal.ofBits .f32 0xFF800000#32) f (Finset.univ : Finset (Fin 16))) hf

/-- The lane sum of row p is the sum over the row's 16 entries. -/
theorem tile_rowSum (y : FVec Ideal S5000x16 .f32) (p : Fin 5000) :
    multiReduction .add [1] S5000 y 0x00000000#32 reduces_S5000x16_S5000 (.inl rfl) rfl (ix1 p)
      = ∑ c : Fin 16, y (ix2 p c) := by
  refine (Ideal.multiReduction_add_single y _ reduces_S5000x16_S5000 (.inl rfl) rfl (ix1 p)).trans ?_
  exact Finset.sum_congr rfl fun k _ => congrArg y (lift_row _ p k)

/-- The tile's softmax stage on any 5000 × 16 array y, at (p, q): the logarithmic softmax of row p of y. -/
theorem tile_logSoftmax (y : FVec Ideal S5000x16 .f32) (p : Fin 5000) (q : Fin 16) :
    subf (subf y (broadcastTo S5000x16 (shapeCast S5000x1
        (multiReduction .maximumf [1] S5000 y 0xFF800000#32 reduces_S5000x16_S5000 (.inl rfl) rfl) shapeCasts_S5000_S5000x1)
        broadcasts_S5000x1_S5000x16))
      (broadcastTo S5000x16 (log (shapeCast S5000x1
        (multiReduction .add [1] S5000 (exp (subf y (broadcastTo S5000x16 (shapeCast S5000x1
          (multiReduction .maximumf [1] S5000 y 0xFF800000#32 reduces_S5000x16_S5000 (.inl rfl) rfl) shapeCasts_S5000_S5000x1)
          broadcasts_S5000x1_S5000x16))) 0x00000000#32 reduces_S5000x16_S5000 (.inl rfl) rfl) shapeCasts_S5000_S5000x1))
        broadcasts_S5000x1_S5000x16) (ix2 p q)
      = SageSpec.logSoftmaxRow (fun c : Fin 16 => y (ix2 p c)) q := by
  have hz : ∀ c : Fin 16, subf y (broadcastTo S5000x16 (shapeCast S5000x1
        (multiReduction .maximumf [1] S5000 y 0xFF800000#32 reduces_S5000x16_S5000 (.inl rfl) rfl) shapeCasts_S5000_S5000x1)
        broadcasts_S5000x1_S5000x16) (ix2 p c) = y (ix2 p c) - SageSpec.rowMax (fun c : Fin 16 => y (ix2 p c)) := fun c => by
    rw [subf_apply, col_spread, tile_rowMax]
  rw [subf_apply, hz q]
  unfold SageSpec.logSoftmaxRow
  refine congrArg (y (ix2 p q) - SageSpec.rowMax (fun c : Fin 16 => y (ix2 p c)) - ·) ?_
  refine (LibColumns.broadcastTo_a1_ab_apply _ broadcasts_S5000x1_S5000x16 p q).trans ?_
  show Ideal.log (shapeCast S5000x1 _ shapeCasts_S5000_S5000x1 (ix2 p (0 : Fin 1))) = _
  rw [LibColumns.shapeCast_a_a1_apply _ shapeCasts_S5000_S5000x1 p (0 : Fin 1), tile_rowSum]
  refine congrArg Ideal.log (Finset.sum_congr rfl fun c _ => ?_)
  show Ideal.exp (subf y _ (ix2 p c)) = _
  rw [hz c]

/-- THE SECOND KERNEL'S TILE at (p, q) is the logarithmic softmax of row p of the dense layer of the tile. -/
theorem pay1_apply (x0 : Vec Ideal S5000x64 .f32) (x1 : Vec Ideal S64x16 .f32) (x2 : Vec Ideal S16 .f32) (p : Fin 5000) (q : Fin 16) :
    k1_pay1 (F := Ideal) x0 x1 x2 (ix2 p q) = SageSpec.denseLogSoftmax x0 x1 x2 p q := by
  unfold k1_pay1 SageSpec.denseLogSoftmax
  refine (tile_logSoftmax _ p q).trans ?_
  refine congrArg (fun y => SageSpec.logSoftmaxRow y q) (funext fun c => ?_)
  unfold SageSpec.dense
  rw [shapeCast_self]
  exact congrArg₂ (· + ·) (tile_product1 _ _ p c) (bias_rows1 x2 p c)

end Cert.KernelIdeal.KValue

end
-- ==== Proof.Blocks1.lean ====
/-
  From tiles to the array: the second kernel.

  The second kernel's grid has 20 points; point t reads rows 5000·t … 5000·t + 4999 of its input array (64 columns), the
  whole 64 × 16 weight matrix and the whole bias, and writes back rows 5000·t … 5000·t + 4999 of its 16-column output. An
  entry of the logarithmic softmax of the dense layer depends on one row of the input only, so what point t writes back
  is block t of that function of the WHOLE input array; the 20 blocks tile the 100000 rows, so after the last point the
  output array is that function, entry by entry. All of this for ANY contents `V` the region is entered with.
-/
import proofs.«103384_j35150012351301_1_alg».proof.Proof.Gen.KernelIdeal.Frame
import proofs.«103384_j35150012351301_1_alg».proof.Proof.Pay1
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2' : (![0, 0] : Fin 2 → Nat) = fun _ => 0 := funext fun a => by fin_cases a <;> rfl
theorem zeros1' : (![0] : Fin 1 → Nat) = fun _ => 0 := funext fun a => by fin_cases a <;> rfl

/-- The logarithmic softmax, along each row, of the dense layer of a whole 100000 × 64 array. -/
def layer1 (a : S100000x64.Idx → EReal) (w : S64x16.Idx → EReal) (b : S16.Idx → EReal) : S100000x16.Idx → EReal :=
  fun i => SageSpec.denseLogSoftmax a w b (i 0) (i 1)

/-- The printed index maps over the grid: the input and the output move one block of rows per point; the weights and
    the bias stay. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK is block t of the function of the arrays as the region finds them. -/
theorem flushed1_eq (c : Dev nD) (t : Fin cfg1.N) :
    (dat1 V c).flushed 3 t = ((cfg1.win 3).blk t).view.read (Elt Ideal) (layer1 (V c main_v42) (V c main_arg4) (V c main_arg5)) := by
  show (cfg1.win 3).cut (grid1.coords t) ((dat1 V c).after 3 t) = _
  rw [after1_3]
  unfold out1_3
  rw [View.canon_unit_zero zeros2']
  simp only [View.ld_unit_zero (S := S5000x64) zeros2', View.ld_unit_zero (S := S64x16) zeros2', View.ld_unit_zero (S := S16) zeros1']
  obtain ⟨e00, e01, e10, e11, e20, e30, e31⟩ := index_facts1 t
  have ht : t.val < 20 := lt_of_lt_of_eq t.isLt N_1
  funext j
  obtain ⟨p, q, rfl⟩ : ∃ (p : Fin 5000) (q : Fin 16), j = ix2 p q := ⟨j 0, j 1, eq_ix2 j⟩
  have hemb : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 16 + 1 * q.val = q.val; omega
  show k1_pay1 (F := Ideal) (iblk1 V c 0 t) (iblk1 V c 1 t) (iblk1 V c 2 t) (ix2 p q)
    = layer1 (V c main_v42) (V c main_arg4) (V c main_arg5) (((cfg1.win 3).blk t).view.emb (ix2 p q))
  rw [hemb]
  refine (pay1_apply _ _ _ p q).trans ?_
  show _ = SageSpec.denseLogSoftmax (V c main_v42) (V c main_arg4) (V c main_arg5) (⟨t.val * 5000 + p.val, by omega⟩ : Fin 100000) q
  refine SageSpec.denseLogSoftmax_tile _ _ _ _ _ _ _ p q (fun k => ?_) (fun k q' => ?_) (fun q' => ?_)
  · show V c main_v42 (((cfg1.win 0).blk t).view.emb (ix2 p k)) = V c main_v42 (ix2 (⟨t.val * 5000 + p.val, by omega⟩ : Fin 100000) k)
    refine congrArg (V c main_v42) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_arg4 (((cfg1.win 1).blk t).view.emb (ix2 k q')) = V c main_arg4 (ix2 k q')
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 16 + 1 * q'.val = q'.val; omega
  · show V c main_arg5 (((cfg1.win 2).blk t).view.emb (ix1 q')) = V c main_arg5 (ix1 q')
    refine congrArg (V c main_arg5) (funext fun a => Fin.ext ?_)
    match a with
    | ⟨0, _⟩ => show win1_2.index t (0 : Fin 1) * 16 + 1 * q'.val = q'.val; omega

/-- An index of the output array is in point t's block iff each coordinate is in the block's range. -/
theorem mem_block1 (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v43).slice (win1_3.rect t)).set ↔ _
  rw [View.set_slice_whole, Rect.mem_set_unit]
  exact Iff.rfl

/-- Every row lies in the block of the point numbered by the row's quotient by 5000. -/
theorem cover1 (i : S100000x16.Idx) : ∃ t : Fin cfg1.N, (cfg1.win 3).flush t = true ∧ i ∈ ((cfg1.win 3).blk t).view.set := by
  have h0 : (i 0).val < 100000 := (i 0).isLt
  have h1 : (i 1).val < 16 := (i 1).isLt
  let t : Fin cfg1.N := ⟨(i 0).val / 5000, by show _ < grid1.N; rw [N_1]; omega⟩
  obtain ⟨-, -, -, -, -, e30, e31⟩ := index_facts1 t
  have e30' : win1_3.index t (0 : Fin 2) = (i 0).val / 5000 := e30
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-- THE OUTPUT ARRAY after the second kernel's last point: the logarithmic softmax of the dense layer of the arrays
    the region found. -/
theorem final1 (c : Dev nD) :
    (dat1 V c).arrAt 3 cfg1.N = layer1 (V c main_v42) (V c main_arg4) (V c main_arg5) :=
  (dat1 V c).arrAt_eq_of_cover 3 (layer1 (V c main_v42) (V c main_arg4) (V c main_arg5)) (fun t _ => flushed1_eq V c t) cover1

end Cert.KernelIdeal.KValue

end
-- ==== Proof.HostStages.lean ====
/-
  The host side of the kernel's program, read as values.

  Between the launch and the first kernel the host computes the mean aggregation of the node features over the
  edges: gather the source rows, scatter-add them to their target rows, divide by the in-degree clipped below at one.
  Between the two kernels it computes the same aggregation of the first kernel's output, from the same edge lists. We
  name that aggregation `agg` and never look inside it: both programs apply the same operations. Chaining the stretches
  with the two kernels' closed forms, the result array ends at

      layer1 (agg (layer0 (agg x s d) W1 b1) s d) W2 b2,

  the logarithmic softmax of the second dense layer of the aggregated, rectified first dense layer of the aggregated
  input — a function of the six argument arrays.
-/
import proofs.«103384_j35150012351301_1_alg».proof.Proof.Gen.KernelIdeal.Frame
import proofs.«103384_j35150012351301_1_alg».proof.Proof.Blocks0
import proofs.«103384_j35150012351301_1_alg».proof.Proof.Blocks1
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo

section Terms
variable {F : FTy → Type} [FloatOps F]

/-- The edges' source nodes: row 0 of the edge table. -/
def src (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The edges' target nodes: row 1 of the edge table. -/
def dst (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- The mean aggregation over the edges of the rows of `h`, as the host operations spell it: the sources' rows (a
    negative source counted from the end) gathered, scatter-added into zeros at the targets, divided by the number of
    edges into each target, at least one. -/
def agg (h : (⟨S100000x64, .f32⟩ : BufTy).Contents (Elt F)) (s d : (⟨S1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (Host.gather gather_S100000x64_S1600000x1_S1600000x64_1_0_n_n_0_1_164 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

end Terms

variable (m : (ℓ : Loc nD τ sig) → Buf (Elt Ideal) ℓ) (ρ : Dev nD → PrngReg)

/-- The program's result as one function of its six argument arrays. -/
def out (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) :
    (⟨S100000x16, .f32⟩ : BufTy).Contents (Elt Ideal) :=
  fun j => SageSpec.denseLogSoftmax (agg (F := Ideal) (fun i => SageSpec.denseRelu (agg (F := Ideal) x0 (src x1) (dst x1)) x2 x3 (i 0) (i 1)) (src x1) (dst x1)) x4 x5 (j 0) (j 1)

/-! ## The first host stretch -/

set_option maxHeartbeats 4000000 in
theorem entry0_agg (c : Dev nD) : (V1 m ρ c main_v22 : S100000x64.Idx → EReal)
    = agg (F := Ideal) (m ((c.tc : Thread nD τ).loc main_arg0)) (src (m ((c.tc : Thread nD τ).loc main_arg1))) (dst (m ((c.tc : Thread nD τ).loc main_arg1))) := by
  dsimp only [V1, W1, hostOps0]
  after_results_simp <;> rfl

theorem entry0_src (c : Dev nD) : (V1 m ρ c main_v1 : S1600000.Idx → BitVec 32) = src (m ((c.tc : Thread nD τ).loc main_arg1)) := by
  dsimp only [V1, W1, hostOps0]
  after_results_simp <;> rfl

theorem entry0_dst (c : Dev nD) : (V1 m ρ c main_v3 : S1600000.Idx → BitVec 32) = dst (m ((c.tc : Thread nD τ).loc main_arg1)) := by
  dsimp only [V1, W1, hostOps0]
  after_results_simp <;> rfl

theorem entry0_w (c : Dev nD) : (V1 m ρ c main_arg2 : S64x64.Idx → EReal) = m ((c.tc : Thread nD τ).loc main_arg2) := by
  dsimp only [V1, W1, hostOps0]
  after_results_simp <;> rfl

theorem entry0_b (c : Dev nD) : (V1 m ρ c main_arg3 : S64.Idx → EReal) = m ((c.tc : Thread nD τ).loc main_arg3) := by
  dsimp only [V1, W1, hostOps0]
  after_results_simp <;> rfl

/-! ## The first kernel's output, and what the second host stretch leaves -/

/-- After the first region its output array holds the rectified dense layer of the aggregated input. -/
theorem mid_h (c : Dev nD) : (W2 m ρ c (Proc.devRef .tc main_v23) : S100000x64.Idx → EReal)
    = layer0 (agg (F := Ideal) (m ((c.tc : Thread nD τ).loc main_arg0)) (src (m ((c.tc : Thread nD τ).loc main_arg1))) (dst (m ((c.tc : Thread nD τ).loc main_arg1)))) (m ((c.tc : Thread nD τ).loc main_arg2)) (m ((c.tc : Thread nD τ).loc main_arg3)) := by
  refine (W2_arr m ρ c 3).trans ?_
  rw [final0 (V1 m ρ) c, entry0_agg, entry0_w, entry0_b]

/-- The first region leaves the edge lists where the first stretch put them. -/
theorem mid_src (c : Dev nD) : (W2 m ρ c (Proc.devRef .tc main_v1) : S1600000.Idx → BitVec 32) = src (m ((c.tc : Thread nD τ).loc main_arg1)) :=
  (W2_of_ne m ρ c main_v1 (by decide)).trans (entry0_src m ρ c)

theorem mid_dst (c : Dev nD) : (W2 m ρ c (Proc.devRef .tc main_v3) : S1600000.Idx → BitVec 32) = dst (m ((c.tc : Thread nD τ).loc main_arg1)) :=
  (W2_of_ne m ρ c main_v3 (by decide)).trans (entry0_dst m ρ c)

set_option maxHeartbeats 4000000 in
/-- The second region finds the aggregation of the first kernel's output. -/
theorem entry1_agg (c : Dev nD) : (V3 m ρ c main_v42 : S100000x64.Idx → EReal)
    = agg (F := Ideal) (layer0 (agg (F := Ideal) (m ((c.tc : Thread nD τ).loc main_arg0)) (src (m ((c.tc : Thread nD τ).loc main_arg1))) (dst (m ((c.tc : Thread nD τ).loc main_arg1)))) (m ((c.tc : Thread nD τ).loc main_arg2)) (m ((c.tc : Thread nD τ).loc main_arg3))) (src (m ((c.tc : Thread nD τ).loc main_arg1))) (dst (m ((c.tc : Thread nD τ).loc main_arg1))) := by
  dsimp only [V3, W3, hostOps1]
  after_results_simp
  rw [mid_h, mid_src, mid_dst]
  rfl

theorem entry1_w (c : Dev nD) : (V3 m ρ c main_arg4 : S64x16.Idx → EReal) = m ((c.tc : Thread nD τ).loc main_arg4) := by
  dsimp only [V3, W3, hostOps1]
  after_results_simp
  refine (W2_of_ne m ρ c main_arg4 (by decide)).trans ?_
  dsimp only [W1, hostOps0]
  after_results_simp <;> rfl

theorem entry1_b (c : Dev nD) : (V3 m ρ c main_arg5 : S16.Idx → EReal) = m ((c.tc : Thread nD τ).loc main_arg5) := by
  dsimp only [V3, W3, hostOps1]
  after_results_simp
  refine (W2_of_ne m ρ c main_arg5 (by decide)).trans ?_
  dsimp only [W1, hostOps0]
  after_results_simp <;> rfl

/-! ## The result -/

/-- THE RESULT ARRAY after the second region is `out` of the six argument arrays. -/
theorem result_eq (c : Dev nD) : (W4 m ρ c (Proc.devRef .tc main_v43) : S100000x16.Idx → EReal)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W4_arr m ρ c 3).trans ?_
  rw [final1 (V3 m ρ) c, entry1_agg, entry1_w, entry1_b]
  rfl

end Cert.KernelIdeal.KValue

end
-- ==== Proof.KRun.lean ====
/-
  The whole program's run with its result array named.

  The program is two stretches of host operations, each followed by a kernel region. Every weakly fair execution from
  a memory with zero counters terminates without a fault, leaves the six argument arrays as launched, and leaves the
  result array at the contents the second region's write-backs give it: `W4` at the result's buffer, the last link of
  the chain of buffer contents launch → first host stretch → first region → second host stretch → second region. This
  is the frame's run over the same segments with one more buffer read off the final state.
-/
import proofs.«103384_j35150012351301_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at `W4`'s contents of its buffer
    and every argument array as launched. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KValue

end
-- ==== Proof.KernelValue.lean ====
/-
  The kernel's program, run and read: every weakly fair execution terminates without a fault, the six argument arrays
  end as launched, and the result array ends at `out` of them — the logarithmic softmax of the second dense layer of the
  aggregated, rectified first dense layer of the aggregated node features.
-/
import proofs.«103384_j35150012351301_1_alg».proof.Proof.HostStages
import proofs.«103384_j35150012351301_1_alg».proof.Proof.KRun

noncomputable section

namespace Cert.KernelIdeal.KValue

open Cert.KernelIdeal Cert.KernelIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (result_eq m ρ c), (h c).2⟩) (run_result m ρ)

end Cert.KernelIdeal.KValue

end
-- ==== Proof.RefOps.lean ====
/-
  The reference program as a list of its 80 host operations, cut in four stretches.

  The reference computes  out = log_softmax (agg (relu (agg x · W1 + b1)) · W2 + b2),  where agg is the mean
  aggregation over the edges (gather the rows at the edge sources, scatter-add them at the edge targets, divide by
  the in-degree or one). Its operations, in order, are:
    A  (1 … 29)   the two index vectors (edge sources, edge targets) and the first aggregation;
    B  (30 … 36)  the first dense layer: product, bias, rectifier;
    C  (37 … 61)  the second aggregation;
    D  (62 … 80)  the second dense layer: product, bias, logarithmic softmax along each row.
  Running the whole list is running A, then B, then C, then D (`after_append`). Every weakly fair execution of the
  program terminates with each buffer at the fold of the list over the launch contents (`run_raw`).
-/
import proofs.«103384_j35150012351301_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 80 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    binary main_v22 main_arg2 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v26) (TRef.of (T := ⟨S100000x64, .f32⟩) main_call0_v0) (TRef.of (T := ⟨S100000x64, .f32⟩) main_v27) maximumf,
    nullary main_c_4 (constantI S_ 32 0#32),
    unary main_c_4 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v27 main_v33 main_v34 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v35 (broadcastInDim S100000x64 ![] bcast_S_S100000x64 : (⟨S_, .f32⟩ : BufTy).Contents (Elt F) → (⟨S100000x64, .f32⟩ : BufTy).Contents (Elt F)),
    unary main_v3 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v38 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v39 (broadcastInDim S100000 ![] bcast_S_S100000 : (⟨S_, .f32⟩ : BufTy).Contents (Elt F) → (⟨S100000, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v42 (broadcastInDim S100000 ![] bcast_S_S100000 : (⟨S_, .f32⟩ : BufTy).Contents (Elt F) → (⟨S100000, .f32⟩ : BufTy).Contents (Elt F)),
    binary main_v41 main_v42 main_v43 (maximumf : (⟨S100000, .f32⟩ : BufTy).Contents (Elt F) → (⟨S100000, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    unary main_v44 main_v45 (broadcastInDim S100000x64 ![0, 1] bcast_S100000x1_S100000x64_0_1 : (⟨S100000x1, .f32⟩ : BufTy).Contents (Elt F) → (⟨S100000x64, .f32⟩ : BufTy).Contents (Elt F)),
    binary main_v37 main_v45 main_v46 (Host.divf : (⟨S100000x64, .f32⟩ : BufTy).Contents (Elt F) → (⟨S100000x64, .f32⟩ : BufTy).Contents (Elt F) → (⟨S100000x64, .f32⟩ : BufTy).Contents (Elt F)),
    binary main_v46 main_arg4 main_v47 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg5 main_v48 (broadcastInDim S1x16 ![1] bcast_S16_S1x16_1 : (⟨S16, .f32⟩ : BufTy).Contents (Elt F) → (⟨S1x16, .f32⟩ : BufTy).Contents (Elt F)),
    unary main_v48 main_v49 (broadcastInDim S100000x16 ![0, 1] bcast_S1x16_S100000x16_0_1 : (⟨S1x16, .f32⟩ : BufTy).Contents (Elt F) → (⟨S100000x16, .f32⟩ : BufTy).Contents (Elt F)),
    binary main_v47 main_v49 main_v50 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0xFF800000#32),
    TRef.binary (TRef.of (T := ⟨S100000x16, .f32⟩) main_v50) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v50) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v51) subf ]

/-- Operations 1 … 29: the edge sources and targets, and the first aggregation. -/
def opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]

/-- Operations 30 … 36: the first dense layer (product, bias, rectifier). -/
def opsB : List (HloOp τ sig (Elt F)) :=
  [ binary main_v22 main_arg2 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v26) (TRef.of (T := ⟨S100000x64, .f32⟩) main_call0_v0) (TRef.of (T := ⟨S100000x64, .f32⟩) main_v27) maximumf ]

/-- Operations 37 … 61: the second aggregation. -/
def opsC : List (HloOp τ sig (Elt F)) :=
  [ nullary main_c_4 (constantI S_ 32 0#32),
    unary main_c_4 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v27 main_v33 main_v34 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v35 (broadcastInDim S100000x64 ![] bcast_S_S100000x64 : (⟨S_, .f32⟩ : BufTy).Contents (Elt F) → (⟨S100000x64, .f32⟩ : BufTy).Contents (Elt F)),
    unary main_v3 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v38 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v39 (broadcastInDim S100000 ![] bcast_S_S100000 : (⟨S_, .f32⟩ : BufTy).Contents (Elt F) → (⟨S100000, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v42 (broadcastInDim S100000 ![] bcast_S_S100000 : (⟨S_, .f32⟩ : BufTy).Contents (Elt F) → (⟨S100000, .f32⟩ : BufTy).Contents (Elt F)),
    binary main_v41 main_v42 main_v43 (maximumf : (⟨S100000, .f32⟩ : BufTy).Contents (Elt F) → (⟨S100000, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    unary main_v44 main_v45 (broadcastInDim S100000x64 ![0, 1] bcast_S100000x1_S100000x64_0_1 : (⟨S100000x1, .f32⟩ : BufTy).Contents (Elt F) → (⟨S100000x64, .f32⟩ : BufTy).Contents (Elt F)),
    binary main_v37 main_v45 main_v46 (Host.divf : (⟨S100000x64, .f32⟩ : BufTy).Contents (Elt F) → (⟨S100000x64, .f32⟩ : BufTy).Contents (Elt F) → (⟨S100000x64, .f32⟩ : BufTy).Contents (Elt F)) ]

/-- Operations 62 … 80: the second dense layer (product, bias, logarithmic softmax). -/
def opsD : List (HloOp τ sig (Elt F)) :=
  [ binary main_v46 main_arg4 main_v47 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg5 main_v48 (broadcastInDim S1x16 ![1] bcast_S16_S1x16_1 : (⟨S16, .f32⟩ : BufTy).Contents (Elt F) → (⟨S1x16, .f32⟩ : BufTy).Contents (Elt F)),
    unary main_v48 main_v49 (broadcastInDim S100000x16 ![0, 1] bcast_S1x16_S100000x16_0_1 : (⟨S1x16, .f32⟩ : BufTy).Contents (Elt F) → (⟨S100000x16, .f32⟩ : BufTy).Contents (Elt F)),
    binary main_v47 main_v49 main_v50 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0xFF800000#32),
    TRef.binary (TRef.of (T := ⟨S100000x16, .f32⟩) main_v50) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v50) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v51) subf ]

set_option maxRecDepth 8192 in
/-- The list is its four stretches, one after the other. -/
theorem ops_split : (ops : List (HloOp τ sig (Elt F))) = opsA ++ (opsB ++ (opsC ++ opsD)) := rfl

/-- Running two lists one after the other is running the first, then the second from where the first ends. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- From any memory with zero counters every weakly fair execution of the program terminates, and every buffer of
    every device ends at the fold of the 80 operations over the device's launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefValue

end
-- ==== Proof.RefTerms.lean ====
/-
  The reference's value as host terms: the two index vectors, the mean aggregation, and the two dense layers.

  The mean aggregation is kept as ONE term of its three operands (the features, the edge sources, the edge targets): it is
  never read at an index. The dense layers are the host's product, bias and rectifier, and the host's product, bias and
  logarithmic softmax; module RefDense reads them at an index.
-/
import proofs.«103384_j35150012351301_1_alg».proof.Proof.Gen.ReferenceIdeal
import Idealize.ShloMosaic.Lib.StableHlo

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The edge sources: row 0 of the 2 × 1600000 edge array, as a vector. -/
def src (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The edge targets: row 1 of the edge array, as a vector. -/
def dst (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- The mean aggregation over the edges: the rows of `h` at the edge sources (a negative source counted from the end),
    added up at the edge targets, each row divided by its in-degree or by one. -/
def agg (h : (⟨S100000x64, .f32⟩ : BufTy).Contents (Elt F)) (s d : (⟨S1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (Host.gather gather_S100000x64_S1600000x1_S1600000x64_1_0_n_n_0_1_164 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- The first dense layer as the host computes it: max (a · w + b, 0), the bias spread over the rows. -/
def hostB (a : (⟨S100000x64, .f32⟩ : BufTy).Contents (Elt F)) (w : (⟨S64x64, .f32⟩ : BufTy).Contents (Elt F)) (b : (⟨S64, .f32⟩ : BufTy).Contents (Elt F)) :
    (⟨S100000x64, .f32⟩ : BufTy).Contents (Elt F) :=
  maximumf
    (addf (Host.dotGeneral dot_S100000x64_S64x64_S100000x64_1_0_0_1_n_n none a w)
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second dense layer before its softmax: a · w + b, the bias spread over the rows. -/
def preD (a : (⟨S100000x64, .f32⟩ : BufTy).Contents (Elt F)) (w : (⟨S64x16, .f32⟩ : BufTy).Contents (Elt F)) (b : (⟨S16, .f32⟩ : BufTy).Contents (Elt F)) :
    (⟨S100000x16, .f32⟩ : BufTy).Contents (Elt F) :=
  addf (Host.dotGeneral dot_S100000x64_S64x16_S100000x16_1_0_0_1_n_n none a w)
    (broadcastInDim S100000x16 ![0, 1] bcast_S1x16_S100000x16_0_1 (broadcastInDim S1x16 ![1] bcast_S16_S1x16_1 b))

/-- Each row of `y` less its maximum (the maximum of −∞ and the fold of max over the row from −∞). -/
def shiftD (y : (⟨S100000x16, .f32⟩ : BufTy).Contents (Elt F)) : (⟨S100000x16, .f32⟩ : BufTy).Contents (Elt F) :=
  subf y
    (broadcastInDim S100000x16 ![0, 1] bcast_S100000x1_S100000x16_0_1
      (broadcastInDim S100000x1 ![0] bcast_S100000_S100000x1_0
        (maximumf (broadcastInDim S100000 ![] bcast_S_S100000 (constant S_ .f32 0xFF800000#32))
          (Host.reduce FloatOps.maximumf y (constant S_ .f32 0xFF800000#32) reducesTo_S100000x16_S100000_d1 h_S_))))

/-- Each row of `z` less the logarithm of the sum of its exponentials. -/
def lseD (z : (⟨S100000x16, .f32⟩ : BufTy).Contents (Elt F)) : (⟨S100000x16, .f32⟩ : BufTy).Contents (Elt F) :=
  subf z
    (broadcastInDim S100000x16 ![0, 1] bcast_S100000x1_S100000x16_0_1
      (Host.log
        (broadcastInDim S100000x1 ![0] bcast_S100000_S100000x1_0
          (Host.reduceAdd (Host.exp z) (constant S_ .f32 0x00000000#32) reducesTo_S100000x16_S100000_d1 h_S_))))

/-- The second dense layer as the host computes it: the logarithmic softmax, along each row, of a · w + b. -/
def hostD (a : (⟨S100000x64, .f32⟩ : BufTy).Contents (Elt F)) (w : (⟨S64x16, .f32⟩ : BufTy).Contents (Elt F)) (b : (⟨S16, .f32⟩ : BufTy).Contents (Elt F)) :
    (⟨S100000x16, .f32⟩ : BufTy).Contents (Elt F) :=
  lseD (shiftD (preD a w b))

end Cert.ReferenceIdeal.RefValue

end
-- ==== Proof.RefStages.lean ====
/-
  What each of the four stretches of the reference leaves, from any contents `V` of the buffers.

  A (operations 1 … 29) leaves the edge sources and targets of the edge array, and the mean aggregation of the features;
  B (30 … 36) leaves the first dense layer of what A left; C (37 … 61) the mean aggregation of what B left, over the same
  sources and targets; D (62 … 80) the second dense layer of what C left. Each stretch leaves alone the buffers it
  does not write. Chained, the whole list leaves at its result buffer the value `refTerm` of the six arguments, and
  leaves the six arguments as they were.
-/
import proofs.«103384_j35150012351301_1_alg».proof.Proof.RefOps
import proofs.«103384_j35150012351301_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Contents carried to a buffer's own type and back are the contents. -/
theorem ofBuf_toBuf {Val : EltTy → Type} {T : BufTy} (x : TRef sig T) (v : T.Contents Val) : x.ofBuf (x.toBuf v) = v := by
  show cast _ (cast _ v) = v
  rw [cast_cast]
  exact cast_eq _ v

/-! ## Stretch A -/

theorem afterA_v22 (V : Valuation τ sig (Elt F)) :
    after opsA V (Proc.devRef .tc main_v22)
      = agg (V (Proc.devRef .tc main_arg0)) (src (V (Proc.devRef .tc main_arg1))) (dst (V (Proc.devRef .tc main_arg1))) := by
  unfold opsA
  after_results_simp
  rfl

theorem afterA_v1 (V : Valuation τ sig (Elt F)) :
    after opsA V (Proc.devRef .tc main_v1) = src (V (Proc.devRef .tc main_arg1)) := by
  unfold opsA
  after_results_simp
  rfl

theorem afterA_v3 (V : Valuation τ sig (Elt F)) :
    after opsA V (Proc.devRef .tc main_v3) = dst (V (Proc.devRef .tc main_arg1)) := by
  unfold opsA
  after_results_simp
  rfl

theorem afterA_arg2 (V : Valuation τ sig (Elt F)) :
    after opsA V (Proc.devRef .tc main_arg2) = V (Proc.devRef .tc main_arg2) := by
  unfold opsA
  after_results_simp

theorem afterA_arg3 (V : Valuation τ sig (Elt F)) :
    after opsA V (Proc.devRef .tc main_arg3) = V (Proc.devRef .tc main_arg3) := by
  unfold opsA
  after_results_simp

theorem afterA_arg4 (V : Valuation τ sig (Elt F)) :
    after opsA V (Proc.devRef .tc main_arg4) = V (Proc.devRef .tc main_arg4) := by
  unfold opsA
  after_results_simp

theorem afterA_arg5 (V : Valuation τ sig (Elt F)) :
    after opsA V (Proc.devRef .tc main_arg5) = V (Proc.devRef .tc main_arg5) := by
  unfold opsA
  after_results_simp

/-! ## Stretch B -/

theorem afterB_v27 (V : Valuation τ sig (Elt F)) :
    after opsB V (Proc.devRef .tc main_v27)
      = hostB (V (Proc.devRef .tc main_v22)) (V (Proc.devRef .tc main_arg2)) (V (Proc.devRef .tc main_arg3)) := by
  unfold opsB
  after_results_simp
  rfl

theorem afterB_v1 (V : Valuation τ sig (Elt F)) :
    after opsB V (Proc.devRef .tc main_v1) = V (Proc.devRef .tc main_v1) := by
  unfold opsB
  after_results_simp

theorem afterB_v3 (V : Valuation τ sig (Elt F)) :
    after opsB V (Proc.devRef .tc main_v3) = V (Proc.devRef .tc main_v3) := by
  unfold opsB
  after_results_simp

theorem afterB_arg4 (V : Valuation τ sig (Elt F)) :
    after opsB V (Proc.devRef .tc main_arg4) = V (Proc.devRef .tc main_arg4) := by
  unfold opsB
  after_results_simp

theorem afterB_arg5 (V : Valuation τ sig (Elt F)) :
    after opsB V (Proc.devRef .tc main_arg5) = V (Proc.devRef .tc main_arg5) := by
  unfold opsB
  after_results_simp

/-! ## Stretch C -/

theorem afterC_v46 (V : Valuation τ sig (Elt F)) :
    after opsC V (Proc.devRef .tc main_v46)
      = agg (V (Proc.devRef .tc main_v27)) (V (Proc.devRef .tc main_v1)) (V (Proc.devRef .tc main_v3)) := by
  unfold opsC
  after_results_simp
  rfl

theorem afterC_arg4 (V : Valuation τ sig (Elt F)) :
    after opsC V (Proc.devRef .tc main_arg4) = V (Proc.devRef .tc main_arg4) := by
  unfold opsC
  after_results_simp

theorem afterC_arg5 (V : Valuation τ sig (Elt F)) :
    after opsC V (Proc.devRef .tc main_arg5) = V (Proc.devRef .tc main_arg5) := by
  unfold opsC
  after_results_simp

/-! ## Stretch D -/

theorem afterD_v51 (V : Valuation τ sig (Elt F)) :
    after opsD V (Proc.devRef .tc main_v51)
      = hostD (V (Proc.devRef .tc main_v46)) (V (Proc.devRef .tc main_arg4)) (V (Proc.devRef .tc main_arg5)) := by
  unfold opsD
  after_results_simp
  simp only [ofBuf_toBuf]
  rfl

/-! ## The whole list -/

/-- The reference's result as a host term of its six arguments. -/
def refTerm (x0 : (⟨S100000x64, .f32⟩ : BufTy).Contents (Elt F)) (x1 : (⟨S2x1600000, .i32⟩ : BufTy).Contents (Elt F)) (x2 : (⟨S64x64, .f32⟩ : BufTy).Contents (Elt F))
    (x3 : (⟨S64, .f32⟩ : BufTy).Contents (Elt F)) (x4 : (⟨S64x16, .f32⟩ : BufTy).Contents (Elt F)) (x5 : (⟨S16, .f32⟩ : BufTy).Contents (Elt F)) : (⟨S100000x16, .f32⟩ : BufTy).Contents (Elt F) :=
  hostD (agg (hostB (agg x0 (src x1) (dst x1)) x2 x3) (src x1) (dst x1)) x4 x5

theorem after_ops_v51 (V : Valuation τ sig (Elt F)) :
    after ops V (Proc.devRef .tc main_v51)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, afterD_v51, afterC_v46, afterC_arg4, afterC_arg5,
    afterB_v27, afterB_v1, afterB_v3, afterB_arg4, afterB_arg5,
    afterA_v22, afterA_v1, afterA_v3, afterA_arg2, afterA_arg3, afterA_arg4, afterA_arg5]
  rfl

set_option maxRecDepth 8192 in
theorem after_ops_arg0 (V : Valuation τ sig (Elt F)) :
    after ops V (Proc.devRef .tc main_arg0) = V (Proc.devRef .tc main_arg0) := by
  after_results_simp

set_option maxRecDepth 8192 in
theorem after_ops_arg1 (V : Valuation τ sig (Elt F)) :
    after ops V (Proc.devRef .tc main_arg1) = V (Proc.devRef .tc main_arg1) := by
  after_results_simp

set_option maxRecDepth 8192 in
theorem after_ops_arg2 (V : Valuation τ sig (Elt F)) :
    after ops V (Proc.devRef .tc main_arg2) = V (Proc.devRef .tc main_arg2) := by
  after_results_simp

set_option maxRecDepth 8192 in
theorem after_ops_arg3 (V : Valuation τ sig (Elt F)) :
    after ops V (Proc.devRef .tc main_arg3) = V (Proc.devRef .tc main_arg3) := by
  after_results_simp

set_option maxRecDepth 8192 in
theorem after_ops_arg4 (V : Valuation τ sig (Elt F)) :
    after ops V (Proc.devRef .tc main_arg4) = V (Proc.devRef .tc main_arg4) := by
  after_results_simp

set_option maxRecDepth 8192 in
theorem after_ops_arg5 (V : Valuation τ sig (Elt F)) :
    after ops V (Proc.devRef .tc main_arg5) = V (Proc.devRef .tc main_arg5) := by
  after_results_simp

end Cert.ReferenceIdeal.RefValue

end
-- ==== Proof.RefDense.lean ====
/-
  The two dense layers of the reference, read at an index, at the ideal values.

  At row r and column c the host's first dense layer is the sum over k of a(r, k) · w(k, c), plus b(c), then the maximum
  with zero; the host's second dense layer is the same sum with the second layer's weights and bias, then the logarithmic softmax along
  row r: with m the maximum of the row (the host takes the maximum of −∞ and the fold of max from −∞, which is the fold)
  and z = y − m, the entry is z − log (Σ exp z) (the host's sum starts from the zero word's value, which adds nothing).
  These are the index-level specification's `denseRelu` and `denseLogSoftmax`.
-/
import proofs.«103384_j35150012351301_1_alg».proof.Proof.RefTerms
import proofs.«103384_j35150012351301_1_alg».proof.Proof.LibDenseLayers
import proofs.«103384_j35150012351301_1_alg».proof.Proof.LibPlainProduct
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.ValueIdx

/-! ## Layout operations at an index -/

/-- A vector of 64 entries spread over the rows of a 100000 × 64 array: entry (r, c) is entry c. -/
theorem bias64_apply {α : Type} (b : S64.Idx → α) (r : Fin 100000) (c : Fin 64) :
    broadcastInDim S100000x64 ![0, 1] bcast_S1x64_S100000x64_0_1 (broadcastInDim S1x64 ![1] bcast_S64_S1x64_1 b) (ix2 r c)
      = b (ix1 c) := by
  generalize hy : broadcastInDim S1x64 ![1] bcast_S64_S1x64_1 b = y
  refine (broadcastInDim_apply _ bcast_S1x64_S100000x64_0_1 y (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans ?_
  subst hy
  exact broadcastInDim_apply _ bcast_S64_S1x64_1 b (ix2 (0 : Fin 1) c) (ix1 c) (fun a => match a with
    | ⟨0, _⟩ => by show c.val = if (64 : Nat) = 1 then 0 else c.val; rw [if_neg (by decide)])

/-- A vector of 16 entries spread over the rows of a 100000 × 16 array: entry (r, c) is entry c. -/
theorem bias16_apply {α : Type} (b : S16.Idx → α) (r : Fin 100000) (c : Fin 16) :
    broadcastInDim S100000x16 ![0, 1] bcast_S1x16_S100000x16_0_1 (broadcastInDim S1x16 ![1] bcast_S16_S1x16_1 b) (ix2 r c)
      = b (ix1 c) := by
  generalize hy : broadcastInDim S1x16 ![1] bcast_S16_S1x16_1 b = y
  refine (broadcastInDim_apply _ bcast_S1x16_S100000x16_0_1 y (ix2 r c) (ix2 (0 : Fin 1) c) (fun a => match a with
    | ⟨0, _⟩ => by show 0 = if (1 : Nat) = 1 then 0 else r.val; rw [if_pos rfl]
    | ⟨1, _⟩ => by show c.val = if (16 : Nat) = 1 then 0 else c.val; rw [if_neg (by decide)])).trans ?_
  subst hy
  exact broadcastInDim_apply _ bcast_S16_S1x16_1 b (ix2 (0 : Fin 1) c) (ix1 c) (fun a => match a with
    | ⟨0, _⟩ => by show c.val = if (16 : Nat) = 1 then 0 else c.val; rw [if_neg (by decide)])

/-- A vector of 100000 entries spread over the columns of a 100000 × 16 array: entry (r, c) is entry r. -/
theorem col16_apply {α : Type} (v : S100000.Idx → α) (r : Fin 100000) (c : Fin 16) :
    broadcastInDim S100000x16 ![0, 1] bcast_S100000x1_S100000x16_0_1 (broadcastInDim S100000x1 ![0] bcast_S100000_S100000x1_0 v) (ix2 r c)
      = v (ix1 r) := by
  generalize hy : broadcastInDim S100000x1 ![0] bcast_S100000_S100000x1_0 v = y
  refine (broadcastInDim_apply _ bcast_S100000x1_S100000x16_0_1 y (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])).trans ?_
  subst hy
  exact broadcastInDim_apply _ bcast_S100000_S100000x1_0 v (ix2 r (0 : Fin 1)) (ix1 r) (fun a => match a with
    | ⟨0, _⟩ => by show r.val = if (100000 : Nat) = 1 then 0 else r.val; rw [if_neg (by decide)])

/-- A 100000 × 1 array spread over 16 columns: entry (r, c) is entry (r, 0). -/
theorem col16_apply' {α : Type} (y : S100000x1.Idx → α) (r : Fin 100000) (c : Fin 16) :
    broadcastInDim S100000x16 ![0, 1] bcast_S100000x1_S100000x16_0_1 y (ix2 r c) = y (ix2 r (0 : Fin 1)) :=
  broadcastInDim_apply _ bcast_S100000x1_S100000x16_0_1 y (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

/-- A vector of 100000 entries as one column: entry (r, 0) is entry r. -/
theorem col1_apply {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- A scalar spread over any shape is the scalar. -/
theorem splat_apply {α : Type} {t : Shape} (dims : Fin S_.rank → Fin t.rank) (h : S_.BroadcastsInDim t dims) (x : S_.Idx → α) (j : t.Idx) :
    broadcastInDim t dims h x j = x ix0 :=
  broadcastInDim_apply dims h x j ix0 (fun a => a.elim0)

/-! ## The first dense layer -/

/-- The 100000 × 64 by 64 × 64 product at (r, c). -/
theorem dot64_apply (a : (⟨S100000x64, .f32⟩ : BufTy).Contents (Elt Ideal)) (w : (⟨S64x64, .f32⟩ : BufTy).Contents (Elt Ideal)) (r : Fin 100000) (c : Fin 64) :
    Host.dotGeneral (F := Ideal) (φ₁ := .f32) (φ₂ := .f32) dot_S100000x64_S64x64_S100000x64_1_0_0_1_n_n none a w (ix2 r c)
      = ∑ k : Fin 64, a (ix2 r k) * w (ix2 k c) :=
  PlainProduct.dotGeneral_apply (M := 100000) (K := 64) (P := 64) (φ₁ := .f32) (φ₂ := .f32)
    dot_S100000x64_S64x64_S100000x64_1_0_0_1_n_n_wf none a w r c

theorem hostB_apply (a : (⟨S100000x64, .f32⟩ : BufTy).Contents (Elt Ideal)) (w : (⟨S64x64, .f32⟩ : BufTy).Contents (Elt Ideal)) (b : (⟨S64, .f32⟩ : BufTy).Contents (Elt Ideal))
    (r : Fin 100000) (c : Fin 64) :
    hostB (F := Ideal) a w b (ix2 r c) = SageSpec.denseRelu a w b r c := by
  unfold hostB
  rw [maximumf_apply, addf_apply, dot64_apply, bias64_apply, splat_apply]
  rfl

/-- The host's first dense layer is the specification's, entry by entry. -/
theorem hostB_eq (a : (⟨S100000x64, .f32⟩ : BufTy).Contents (Elt Ideal)) (w : (⟨S64x64, .f32⟩ : BufTy).Contents (Elt Ideal)) (b : (⟨S64, .f32⟩ : BufTy).Contents (Elt Ideal)) :
    hostB (F := Ideal) a w b = fun j => SageSpec.denseRelu a w b (j 0) (j 1) := by
  funext j
  obtain ⟨r, c, rfl⟩ : ∃ (r : Fin 100000) (c : Fin 64), j = ix2 r c := ⟨j 0, j 1, eq_ix2 j⟩
  exact hostB_apply a w b r c

/-! ## The second dense layer -/

/-- The 100000 × 64 by 64 × 16 product at (r, c). -/
theorem dot16_apply (a : (⟨S100000x64, .f32⟩ : BufTy).Contents (Elt Ideal)) (w : (⟨S64x16, .f32⟩ : BufTy).Contents (Elt Ideal)) (r : Fin 100000) (c : Fin 16) :
    Host.dotGeneral (F := Ideal) (φ₁ := .f32) (φ₂ := .f32) dot_S100000x64_S64x16_S100000x16_1_0_0_1_n_n none a w (ix2 r c)
      = ∑ k : Fin 64, a (ix2 r k) * w (ix2 k c) :=
  PlainProduct.dotGeneral_apply (M := 100000) (K := 64) (P := 16) (φ₁ := .f32) (φ₂ := .f32)
    dot_S100000x64_S64x16_S100000x16_1_0_0_1_n_n_wf none a w r c

theorem preD_apply (a : (⟨S100000x64, .f32⟩ : BufTy).Contents (Elt Ideal)) (w : (⟨S64x16, .f32⟩ : BufTy).Contents (Elt Ideal)) (b : (⟨S16, .f32⟩ : BufTy).Contents (Elt Ideal))
    (r : Fin 100000) (c : Fin 16) :
    preD (F := Ideal) a w b (ix2 r c) = SageSpec.dense a w b r c := by
  unfold preD
  rw [addf_apply, dot16_apply, bias16_apply]
  rfl

/-- Row r of a 100000 × 16 array with column k put back is (r, k). -/
theorem lift_row (h : S100000x16.Reduces [1] S100000) (r : Fin 100000) (k : Fin (S100000x16.size 1)) :
    h.lift (ix1 r) k = ix2 r (⟨k.val, k.isLt⟩ : Fin 16) := by
  funext c; apply Fin.ext
  fin_cases c <;> rfl

/-- The maximum of −∞ and y is y. -/
theorem neg_inf_max (y : EReal) : max (Ideal.ofBits .f32 0xFF800000#32) y = y := by
  simp [Ideal.ofBits, Ideal.ieee]

/-- The host's fold of max along row r, from −∞, is the row's maximum. -/
theorem rowMax_apply (y : FVec Ideal S100000x16 .f32) (r : Fin 100000) :
    Host.reduce FloatOps.maximumf y (constant (F := Ideal) S_ .f32 0xFF800000#32) reducesTo_S100000x16_S100000_d1 h_S_ (ix1 r)
      = SageSpec.rowMax (fun c' : Fin 16 => y (ix2 r c')) := by
  have h : S100000x16.Reduces [1] S100000 := by decide
  rw [Host.reduce_eq_fold_single FloatOps.maximumf y _ reducesTo_S100000x16_S100000_d1 h h_S_]
  unfold SageSpec.rowMax
  have hf : (y ∘ h.lift (ix1 r)) = fun k : Fin 16 => y (ix2 r k) := funext fun k => congrArg y (lift_row h r k)
  exact congrArg (fun f => Finset.fold max (Ideal.ofBits .f32 0xFF800000#32) f (Finset.univ : Finset (Fin 16))) hf

theorem shiftD_apply (y : FVec Ideal S100000x16 .f32) (r : Fin 100000) (c : Fin 16) :
    shiftD (F := Ideal) y (ix2 r c) = y (ix2 r c) - SageSpec.rowMax (fun c' : Fin 16 => y (ix2 r c')) := by
  unfold shiftD
  rw [subf_apply, col16_apply, maximumf_apply, splat_apply, rowMax_apply]
  exact congrArg (y (ix2 r c) - ·) (neg_inf_max _)

/-- The host's sum along row r, from the zero word's value, is the row's sum. -/
theorem rowSum_apply (x : FVec Ideal S100000x16 .f32) (r : Fin 100000) :
    Host.reduceAdd (F := Ideal) x (constant S_ .f32 0x00000000#32) reducesTo_S100000x16_S100000_d1 h_S_ (ix1 r)
      = ∑ k : Fin 16, x (ix2 r k) := by
  have h : S100000x16.Reduces [1] S100000 := by decide
  simp only [Host.reduceAdd, Ideal.hostReduceAdd_def]
  rw [Ideal.hostReduceAdd_single reducesTo_S100000x16_S100000_d1 h]
  rw [show (constant (F := Ideal) S_ .f32 0x00000000#32 (Shape.Idx.first h_S_) : EReal) = 0 from Ideal.ofBits_zero_f32, zero_add]
  exact Finset.sum_congr rfl fun k _ => congrArg x (lift_row h r k)

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

theorem lseD_apply (z : FVec Ideal S100000x16 .f32) (r : Fin 100000) (c : Fin 16) :
    lseD (F := Ideal) z (ix2 r c) = z (ix2 r c) - Ideal.log (∑ k : Fin 16, Ideal.exp (z (ix2 r k))) := by
  unfold lseD
  rw [subf_apply, col16_apply', hostLog_apply, col1_apply, rowSum_apply]
  rfl

theorem hostD_apply (a : (⟨S100000x64, .f32⟩ : BufTy).Contents (Elt Ideal)) (w : (⟨S64x16, .f32⟩ : BufTy).Contents (Elt Ideal)) (b : (⟨S16, .f32⟩ : BufTy).Contents (Elt Ideal))
    (r : Fin 100000) (c : Fin 16) :
    hostD (F := Ideal) a w b (ix2 r c) = SageSpec.denseLogSoftmax a w b r c := by
  unfold hostD
  rw [lseD_apply]
  simp only [shiftD_apply, preD_apply]
  rfl

/-- The host's second dense layer is the specification's, entry by entry. -/
theorem hostD_eq (a : (⟨S100000x64, .f32⟩ : BufTy).Contents (Elt Ideal)) (w : (⟨S64x16, .f32⟩ : BufTy).Contents (Elt Ideal)) (b : (⟨S16, .f32⟩ : BufTy).Contents (Elt Ideal)) :
    hostD (F := Ideal) a w b = fun j => SageSpec.denseLogSoftmax a w b (j 0) (j 1) := by
  funext j
  obtain ⟨r, c, rfl⟩ : ∃ (r : Fin 100000) (c : Fin 16), j = ix2 r c := ⟨j 0, j 1, eq_ix2 j⟩
  exact hostD_apply a w b r c

end Cert.ReferenceIdeal.RefValue

end
-- ==== Proof.RefValue.lean ====
/-
  The reference's value and its run.

  The reference computes  out = log_softmax (agg (relu (agg x · W1 + b1)) · W2 + b2)  along each row, where agg is the mean
  aggregation over the edges. Its 80 operations leave at the result buffer the host term `refTerm` of the six arguments
  (the four stretches chained); at the ideal values the two dense layers of that term are the index-level specification's
  `denseRelu` and `denseLogSoftmax` entry by entry, and the two aggregations stay as they are. So every weakly fair execution of the reference
  terminates with the result buffer at `out` of the launch contents of the arguments, the arguments unchanged.
-/
import proofs.«103384_j35150012351301_1_alg».proof.Proof.RefStages
import proofs.«103384_j35150012351301_1_alg».proof.Proof.RefDense
import proofs.«103384_j35150012351301_1_alg».proof.Proof.LibDenseLayers

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's result as one function of its six arguments: the second dense layer (with its logarithmic softmax)
    of the mean aggregation of the first dense layer (with its rectifier) of the mean aggregation of the features. -/
def out (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) : (⟨S100000x16, .f32⟩ : BufTy).Contents (Elt Ideal) :=
  fun j => SageSpec.denseLogSoftmax (agg (F := Ideal) (fun i => SageSpec.denseRelu (agg (F := Ideal) x0 (src x1) (dst x1)) x2 x3 (i 0) (i 1)) (src x1) (dst x1)) x4 x5 (j 0) (j 1)

/-- The host term of the reference is `out`: each dense layer is the specification's, entry by entry. -/
theorem refTerm_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) :
    refTerm (F := Ideal) x0 x1 x2 x3 x4 x5 = out x0 x1 x2 x3 x4 x5 := by
  unfold refTerm out
  rw [hostD_eq, hostB_eq]

/-- On every device, from any memory with zero counters: every weakly fair execution of the reference terminates with the
    result buffer at `out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v51).trans ((after_ops_v51 (launchContents m c)).trans (refTerm_eq _ _ _ _ _ _)),
       (h c main_arg0).trans (after_ops_arg0 (launchContents m c)),
       (h c main_arg1).trans (after_ops_arg1 (launchContents m c)),
       (h c main_arg2).trans (after_ops_arg2 (launchContents m c)),
       (h c main_arg3).trans (after_ops_arg3 (launchContents m c)),
       (h c main_arg4).trans (after_ops_arg4 (launchContents m c)),
       (h c main_arg5).trans (after_ops_arg5 (launchContents m c))⟩)
    (run_raw m ρ)

end Cert.ReferenceIdeal.RefValue

end
-- ==== Proof.lean ====
/-
  A two-layer graph network, kernel against reference, on the extended reals.

  Both programs compute  out = log_softmax (agg (relu (agg x · W1 + b1)) · W2 + b2)  along each row, where `agg` is the
  mean aggregation over the edges (gather the source rows, scatter-add them at the targets, divide by the in-degree
  clipped below at one). The kernel's program computes `agg` with the same host operations as the reference and the
  two dense stages in two kernels, each over 20 tiles of 5000 rows: tile products on the matrix unit into zeros, the
  bias row added, then a rectifier in the first kernel and, in the second, the row maximum, the shift, and the
  logarithm of the row's sum of exponentials. The reference computes the dense stages as whole-array products.

  On the extended reals the roundings on the way into the matrix unit are the identity, a product accumulated into zeros
  and a whole-array product are the same sum over the 64 contracted columns, and a row of either dense stage depends on
  one row of its input only, so the tiles assemble to the whole-array function (Blocks0, Blocks1 over Pay0, Pay1). The
  reference's logarithmic softmax takes one more maximum, with −∞, which changes nothing. `agg` is never opened: both
  sides are stated as ONE function `out` of the six arguments, over the same `agg` (`out_eq`). No finiteness of the
  inputs is needed: the two sides are the same expression, operation by operation.
-/
import proofs.«103384_j35150012351301_1_alg».proof.Defs
import proofs.«103384_j35150012351301_1_alg».proof.Proof.Gen.Kernel
import proofs.«103384_j35150012351301_1_alg».proof.Proof.Gen.Kernel.Frame
import proofs.«103384_j35150012351301_1_alg».proof.Proof.Gen.KernelIdeal
import proofs.«103384_j35150012351301_1_alg».proof.Proof.Gen.KernelIdeal.Frame
import proofs.«103384_j35150012351301_1_alg».proof.Proof.Gen.ReferenceIdeal
import proofs.«103384_j35150012351301_1_alg».proof.Proof.Gen.Pre_finite_inputs
import proofs.«103384_j35150012351301_1_alg».proof.Proof.KernelValue
import proofs.«103384_j35150012351301_1_alg».proof.Proof.RefValue

noncomputable section

namespace Cert.Proof

open Idealize.ShloMosaic Idealize.ShloMosaic.TcCoe Idealize.SL.Sem

/-- The two programs' result functions are one function: the same dense stages over the same aggregation. -/
theorem out_eq (x0 : (⟨Cert.KernelIdeal.S100000x64, .f32⟩ : BufTy).Contents (Elt Ideal)) (x1 : (⟨Cert.KernelIdeal.S2x1600000, .i32⟩ : BufTy).Contents (Elt Ideal))
    (x2 : (⟨Cert.KernelIdeal.S64x64, .f32⟩ : BufTy).Contents (Elt Ideal)) (x3 : (⟨Cert.KernelIdeal.S64, .f32⟩ : BufTy).Contents (Elt Ideal))
    (x4 : (⟨Cert.KernelIdeal.S64x16, .f32⟩ : BufTy).Contents (Elt Ideal)) (x5 : (⟨Cert.KernelIdeal.S16, .f32⟩ : BufTy).Contents (Elt Ideal)) :
    Cert.ReferenceIdeal.RefValue.out x0 x1 x2 x3 x4 x5 = Cert.KernelIdeal.KValue.out x0 x1 x2 x3 x4 x5 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

/-- The idealized kernel is the kernel's own text read on the extended reals: nothing was rewritten. -/
theorem preserves : Cert.preserves_Kernel_KernelIdeal := trivial

/-- From memories agreeing on the six arguments both programs end with the result array at `out` of them. -/
theorem algebraic : Cert.algebraic_KernelIdeal_ReferenceIdeal := by
  intro m ρ m' ρ' _ hagree
  refine ⟨fun c => Cert.KernelIdeal.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact out_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
